-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x128 : Shape := ⟨3, ![16384, 32, 128]⟩
abbrev S16384x32 : Shape := ⟨2, ![16384, 32]⟩
abbrev S_ : Shape := ⟨0, ![]⟩

class Facts : Prop where
  bcast_S_S16384x32x128 : S_.BroadcastsInDim S16384x32x128 (![] : Fin 0 → Fin S16384x32x128.rank)
  reducesTo_S16384x32x128_S_d0_1_2 : S16384x32x128.ReducesTo [0, 1, 2] S_
  h_S_ : 0 < S_.numel
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  main_v18

def fn {F : FTy → Type} [FloatOps F] (main_arg0 : FVec F S16384x32x128 .f32) (main_arg1 : FVec F S16384x32 .f32) (main_arg2 : FVec F S16384x32x128 .f32) (main_arg3 : FVec F S16384x32 .f32) : IVec S_ 1 :=
  let main_v0 : FVec F S16384x32x128 .f32 := Host.absf main_arg0
  let main_cst : FVec F S_ .f32 := constant S_ .f32 0x7F800000#32
  let main_v1 : FVec F S16384x32x128 .f32 := broadcastInDim S16384x32x128 ![] bcast_S_S16384x32x128 main_cst
  let main_v2 : IVec S16384x32x128 1 := cmpf .olt main_v0 main_v1
  let main_c : IVec S_ 1 := constantI S_ 1 1#1
  let main_v3 : IVec S_ 1 := (fun x v => Host.reduce IntOp.andi x v reducesTo_S16384x32x128_S_d0_1_2 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384x32x128 .f32 := Host.absf main_arg2
  let main_cst_2 : FVec F S_ .f32 := constant S_ .f32 0x7F800000#32
  let main_v10 : FVec F S16384x32x128 .f32 := broadcastInDim S16384x32x128 ![] bcast_S_S16384x32x128 main_cst_2
  let main_v11 : IVec S16384x32x128 1 := cmpf .olt main_v9 main_v10
  let main_c_3 : IVec S_ 1 := constantI S_ 1 1#1
  let main_v12 : IVec S_ 1 := (fun x v => Host.reduce IntOp.andi x v reducesTo_S16384x32x128_S_d0_1_2 h_S_) main_v11 main_c_3
  let main_v13 : IVec S_ 1 := andi main_v8 main_v12
  let main_v14 : FVec F S16384x32 .f32 := Host.absf main_arg3
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_v13 main_v16
-- ==== Kernel.lean ====
abbrev S16384x32x128 : Shape := ⟨3, ![16384, 32, 128]⟩
abbrev S16384x32 : Shape := ⟨2, ![16384, 32]⟩
abbrev S256x32x128 : Shape := ⟨3, ![256, 32, 128]⟩
abbrev S256x32 : Shape := ⟨2, ![256, 32]⟩
abbrev S256x32x1 : Shape := ⟨3, ![256, 32, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x32x128, .f32⟩
  | .hbm, ⟨1, _⟩ => ⟨S16384x32, .f32⟩
  | .hbm, ⟨2, _⟩ => ⟨S16384x32x128, .f32⟩
  | .hbm, ⟨3, _⟩ => ⟨S16384x32, .f32⟩
  | .hbm, ⟨4, _⟩ => ⟨S16384x32x128, .f32⟩
  | .hbm, ⟨5, _⟩ => ⟨S16384x32, .f32⟩
  | .local _ .vmem, ⟨0, _⟩ => ⟨S256x32x128, .f32⟩
  | .local _ .vmem, ⟨1, _⟩ => ⟨S256x32x128, .f32⟩
  | .local _ .vmem, ⟨2, _⟩ => ⟨S256x32, .f32⟩
  | .local _ .vmem, ⟨3, _⟩ => ⟨S256x32, .f32⟩
  | .local _ .vmem, ⟨4, _⟩ => ⟨S256x32x128, .f32⟩
  | .local _ .vmem, ⟨5, _⟩ => ⟨S256x32x128, .f32⟩
  | .local _ .vmem, ⟨6, _⟩ => ⟨S256x32, .f32⟩
  | .local _ .vmem, ⟨7, _⟩ => ⟨S256x32, .f32⟩
  | .local _ .vmem, ⟨8, _⟩ => ⟨S256x32x128, .f32⟩
  | .local _ .vmem, ⟨9, _⟩ => ⟨S256x32x128, .f32⟩
  | .local _ .vmem, ⟨10, _⟩ => ⟨S256x32, .f32⟩
  | .local _ .vmem, ⟨11, _⟩ => ⟨S256x32, .f32⟩
  | _, _ => ⟨S16384x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  inb_S256x32x128_S256x32x128_0_0_0 : ∀ a, (![0, 0, 0] : Fin 3 → Nat) a + S256x32x128.size a ≤ S256x32x128.size a
  h_S256x32x128 : 0 < S256x32x128.numel
  broadcasts_S256x32x1_S256x32x128 : S256x32x1.Broadcasts S256x32x128
  shapeCasts_S256x32x128_S256x32x128 : S256x32x128.ShapeCasts S256x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x128.size a ≤ S16384x32x128.size a
  hwx0_0 : ∀ i : grid0.Coords, EltTy.bits .f32 = 32 ∨ (Rect.block (s := S16384x32x128) S256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S16384x32.size a
  hwx0_1 : ∀ i : grid0.Coords, EltTy.bits .f32 = 32 ∨ (Rect.block (s := S16384x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x128.size a ≤ S16384x32x128.size a
  hwx0_2 : ∀ i : grid0.Coords, EltTy.bits .f32 = 32 ∨ (Rect.block (s := S16384x32x128) S256x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S16384x32.size a
  hwx0_3 : ∀ i : grid0.Coords, EltTy.bits .f32 = 32 ∨ (Rect.block (s := S16384x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x32x128.size a ≤ S16384x32x128.size a
  hwx0_4 : ∀ i : grid0.Coords, EltTy.bits .f32 = 32 ∨ (Rect.block (s := S16384x32x128) S256x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S16384x32.size a
  hwx0_5 : ∀ i : grid0.Coords, EltTy.bits .f32 = 32 ∨ (Rect.block (s := S16384x32) S256x32.size (cc0_transform_5 i) (hinb0_5 i)).WholeWords (EltTy.packing .f32)

variable [Facts₀]

abbrev win0_0 : Pipeline.Window sig grid0 :=
  Pipeline.Window.ofSpec (Memref.whole main_arg0) S256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x32x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x32x128 : Shape := ⟨3, ![16384, 32, 128]⟩
abbrev S16384x32 : Shape := ⟨2, ![16384, 32]⟩
abbrev S_ : Shape := ⟨0, ![]⟩
abbrev S16384x32x1 : Shape := ⟨3, ![16384, 32, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x32x128, .f32⟩
  | .hbm, ⟨1, _⟩ => ⟨S16384x32, .f32⟩
  | .hbm, ⟨2, _⟩ => ⟨S16384x32x128, .f32⟩
  | .hbm, ⟨3, _⟩ => ⟨S16384x32, .f32⟩
  | .hbm, ⟨4, _⟩ => ⟨S_, .f32⟩
  | .hbm, ⟨5, _⟩ => ⟨S16384x32, .f32⟩
  | .hbm, ⟨6, _⟩ => ⟨S16384x32, .i1⟩
  | .hbm, ⟨7, _⟩ => ⟨S_, .f32⟩
  | .hbm, ⟨8, _⟩ => ⟨S_, .f32⟩
  | .hbm, ⟨9, _⟩ => ⟨S16384x32, .f32⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S16384x32, .i1⟩
  | .hbm, ⟨14, _⟩ => ⟨S_, .f32⟩
  | .hbm, ⟨15, _⟩ => ⟨S_, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32x1, .f32⟩
  | .hbm, ⟨28, _⟩ => ⟨S16384x32, .f32⟩
  | .hbm, ⟨29, _⟩ => ⟨S16384x32x1, .f32⟩
  | .hbm, ⟨30, _⟩ => ⟨S16384x32x128, .f32⟩
  | .hbm, ⟨31, _⟩ => ⟨S16384x32x128, .f32⟩
  | .hbm, ⟨32, _⟩ => ⟨S16384x32x128, .f32⟩
  | .hbm, ⟨33, _⟩ => ⟨S16384x32x128, .f32⟩
  | .hbm, ⟨34, _⟩ => ⟨S16384x32x128, .f32⟩
  | _, _ => ⟨S16384x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x32x1_S16384x32x128_0_1_2 : S16384x32x1.BroadcastsInDim S16384x32x128 (![0, 1, 2] : Fin 3 → Fin S16384x32x128.rank)

variable [Facts₀]

class Facts : Prop extends Facts₀ where

variable [Facts]
-- ==== Proof.KernelPieces.lean ====
/-
  What one run of the kernel's body leaves in its two output blocks, as pure terms of the four input blocks
  (`x0` the prefix outputs' block, `x1` the prefix log-sum-exps' block, `x2` the suffix outputs' block, `x3` the
  suffix log-sum-exps' block), at any float instance.

  The log-sum-exp block is written by ONE store that covers it, so it ends at that store's value
  (`lse_block`). The output block is written twice: first the prefix product, which the body then READS BACK,
  adds the suffix product to, and stores over the whole block again. The last store covers the block, so the
  block ends at its value, in which the read-back is the first store's value (`out_block`): prefix product
  plus suffix product.
-/
import proofs.«149472_j15418932593049_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The zero offsets of a rank-2 whole-block access. -/
theorem hz2 : (![0, 0] : Fin 2 → Nat) = fun _ => 0 := funext fun a => by fin_cases a <;> rfl

/-- The zero offsets of a rank-3 whole-block access. -/
theorem hz3 : (![0, 0, 0] : Fin 3 → Nat) = fun _ => 0 := funext fun a => by fin_cases a <;> rfl

/-- The log-sum-exp block ends at its one covering store's value, a function of the two log-sum-exp blocks. -/
theorem lse_block (c : Dev nD) (i : grid0.Coords) (arg1 : Memref sig .tc .vmem S256x32x128 .f32) (harg1 : arg1.IsWhole) (arg2 : Memref sig .tc .vmem S256x32 .f32) (harg2 : arg2.IsWhole) (arg3 : Memref sig .tc .vmem S256x32x128 .f32) (harg3 : arg3.IsWhole) (arg4 : Memref sig .tc .vmem S256x32 .f32) (harg4 : arg4.IsWhole) (arg5 : Memref sig .tc .vmem S256x32x128 .f32) (harg5 : arg5.IsWhole) (arg6 : Memref sig .tc .vmem S256x32 .f32) (harg6 : arg6.IsWhole)
    (x0 : Vec F S256x32x128 .f32) (x1 : Vec F S256x32 .f32) (x2 : Vec F S256x32x128 .f32) (x3 : Vec F S256x32 .f32) :
    out0_A_5 c i arg1 harg1 arg2 harg2 arg3 harg3 arg4 harg4 arg5 harg5 arg6 harg6 x0 x1 x2 x3 = k0_pay6 x1 x3 := by
  unfold out0_A_5
  rw [View.read_writes_eq_canon _ _ _ (cover0_A_5 c i arg1 harg1 arg2 harg2 arg3 harg3 arg4 harg4 arg5 harg5 arg6 harg6 x0 x1 x2 x3)]
  unfold kernelRun0_A
  dsimp only
  rw [View.canon_unit_zero hz2]
  simp only [View.readAt_eq_ld, harg2.read_unread, harg4.read_unread, View.ld_unit_zero (S := S256x32) hz2]

/-- The output block ends at its LAST covering store's value: the suffix product added to what the body read back
    from the block, which is the first store's value, the prefix product. -/
theorem out_block (c : Dev nD) (i : grid0.Coords) (arg1 : Memref sig .tc .vmem S256x32x128 .f32) (harg1 : arg1.IsWhole) (arg2 : Memref sig .tc .vmem S256x32 .f32) (harg2 : arg2.IsWhole) (arg3 : Memref sig .tc .vmem S256x32x128 .f32) (harg3 : arg3.IsWhole) (arg4 : Memref sig .tc .vmem S256x32 .f32) (harg4 : arg4.IsWhole) (arg5 : Memref sig .tc .vmem S256x32x128 .f32) (harg5 : arg5.IsWhole) (arg6 : Memref sig .tc .vmem S256x32 .f32) (harg6 : arg6.IsWhole)
    (x0 : Vec F S256x32x128 .f32) (x1 : Vec F S256x32 .f32) (x2 : Vec F S256x32x128 .f32) (x3 : Vec F S256x32 .f32) :
    out0_A_4 c i arg1 harg1 arg2 harg2 arg3 harg3 arg4 harg4 arg5 harg5 arg6 harg6 x0 x1 x2 x3 = k0_pay9 x1 x3 (k0_pay8 x1 x3 x0) x2 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_cons_unit_zero (S := S256x32x128) hz3, View.readCov_unit_zero (S := S256x32x128) _ hz3]
  simp only [View.readAt_eq_ld, harg1.read_unread, harg2.read_unread, harg3.read_unread, harg4.read_unread,
    View.ld_unit_zero (S := S256x32) hz2, View.ld_unit_zero (S := S256x32x128) hz3]

end Cert.KernelIdeal.Pieces

end
-- ==== Proof.MergeLaw.lean ====
/-
  Merging two partial attention states by their log-sum-exp weights, entry by entry, on the extended reals.

  For a prefix state with log-sum-exp `p` and a suffix state with log-sum-exp `s` (a `+∞` entry, the mark of "no
  state", first replaced by `-∞`: `clean`), put `M = max p s`, `e_p = exp (p - M)`, `e_s = exp (s - M)` and
  `Z = e_p + e_s`. The merged log-sum-exp is `log Z + M`, the two states' shares are `e_p / Z` and `e_s / Z`, and
  the merged output is `a · (e_p / Z) + b · (e_s / Z)` of the two partial outputs `a`, `b`.

  One of the two programs spells the suffix share as the complement `1 - e_p / Z`. For FINITE `p` and `s` the two
  spellings agree: `e_p` and `e_s` are then positive reals (one of them is `1`), so `Z` is a real `≥ 1`, the
  quotients are real quotients, and `1 - e_p / Z = (Z - e_p) / Z = e_s / Z` in the field of reals
  (`complement_share`). At an infinite log-sum-exp the identity can fail on the extended reals (with both entries
  `-∞` the weights are `exp (-∞ - -∞)`), which is why it is stated for real arguments only.
-/
import Idealize.ShloMosaic.PureOps.Ideal

noncomputable section

namespace Cert.Merge

open Idealize.ShloMosaic

/-! ## The three float patterns the programs spell -/

/-- The pattern of `+∞` denotes the top of the extended reals. -/
theorem posInf_eq : Ideal.ofBits .f32 0x7F800000#32 = ⊤ := by simp [Ideal.ofBits, Ideal.ieee]

/-- The pattern of `-∞` denotes the bottom. -/
theorem negInf_eq : Ideal.ofBits .f32 0xFF800000#32 = ⊥ := by simp [Ideal.ofBits, Ideal.ieee]

/-- The pattern of `1.0` denotes `1`. -/
theorem one_eq : Ideal.ofBits .f32 0x3F800000#32 = 1 := by
  simp [Ideal.ofBits, Ideal.ieee, -EReal.coe_mul]; norm_num

/-! ## The merge, one entry at a time -/

/-- A log-sum-exp entry with the mark `+∞` replaced by `-∞`. -/
def clean (x : EReal) : EReal :=
  Scalar.select (Ideal.cmp .oeq x (Ideal.ofBits .f32 0x7F800000#32)) (Ideal.ofBits .f32 0xFF800000#32) x

/-- The larger of the two cleaned entries: the shift that keeps both exponentials at most `1`. -/
def peak (p s : EReal) : EReal := max (clean p) (clean s)

/-- The prefix state's weight `exp (p - M)`. -/
def wgtP (p s : EReal) : EReal := Ideal.exp (clean p - peak p s)

/-- The suffix state's weight `exp (s - M)`. -/
def wgtS (p s : EReal) : EReal := Ideal.exp (clean s - peak p s)

/-- The total weight `Z`. -/
def mass (p s : EReal) : EReal := wgtP p s + wgtS p s

/-- The merged log-sum-exp `log Z + M`. -/
def lse (p s : EReal) : EReal := Ideal.log (mass p s) + peak p s

/-- The prefix state's share `e_p / Z`. -/
def shareP (p s : EReal) : EReal := Ideal.div (wgtP p s) (mass p s)

/-- The suffix state's share `e_s / Z`. -/
def shareS (p s : EReal) : EReal := Ideal.div (wgtS p s) (mass p s)

/-- The merged output entry, the suffix share spelt as a quotient. -/
def merged (a b p s : EReal) : EReal := a * shareP p s + b * shareS p s

/-- The merged output entry, the suffix share spelt as the complement of the prefix share. -/
def mergedCompl (a b p s : EReal) : EReal :=
  a * shareP p s + b * (Ideal.ofBits .f32 0x3F800000#32 - shareP p s)

/-! ## The law: for finite log-sum-exps the complement of one share is the other -/

/-- A real entry is not the mark, so cleaning leaves it. -/
theorem clean_coe (r : ℝ) : clean (r : EReal) = r := by
  unfold clean
  rw [posInf_eq]
  have h : Ideal.cmp .oeq (r : EReal) ⊤ = 0#1 := by
    simp [Ideal.cmp, EReal.coe_ne_top]
  rw [h]
  exact if_neg (by decide)

/-- For real entries the shift is the real maximum. -/
theorem peak_coe (p s : ℝ) : peak (p : EReal) (s : EReal) = ((max p s : ℝ) : EReal) := by
  unfold peak
  rw [clean_coe, clean_coe]
  exact (EReal.coe_strictMono.monotone.map_max).symm

/-- For real entries the prefix weight is the real exponential of a real. -/
theorem wgtP_coe (p s : ℝ) : wgtP (p : EReal) (s : EReal) = ((Real.exp (p - max p s) : ℝ) : EReal) := by
  unfold wgtP
  rw [clean_coe, peak_coe, ← EReal.coe_sub]
  rfl

/-- For real entries the suffix weight is the real exponential of a real. -/
theorem wgtS_coe (p s : ℝ) : wgtS (p : EReal) (s : EReal) = ((Real.exp (s - max p s) : ℝ) : EReal) := by
  unfold wgtS
  rw [clean_coe, peak_coe, ← EReal.coe_sub]
  rfl

/-- For real entries the total weight is a real. -/
theorem mass_coe (p s : ℝ) :
    mass (p : EReal) (s : EReal) = ((Real.exp (p - max p s) + Real.exp (s - max p s) : ℝ) : EReal) := by
  unfold mass
  rw [wgtP_coe, wgtS_coe, EReal.coe_add]

/-- THE LAW. For finite log-sum-exps, `1 - e_p / Z = e_s / Z`: the total weight is a nonzero real, so both
    quotients are real quotients and the identity is the field's `1 - x / (x + y) = y / (x + y)`. -/
theorem complement_share (p s : ℝ) :
    Ideal.ofBits .f32 0x3F800000#32 - shareP (p : EReal) (s : EReal) = shareS (p : EReal) (s : EReal) := by
  have hZ : Real.exp (p - max p s) + Real.exp (s - max p s) ≠ 0 :=
    (add_pos (Real.exp_pos _) (Real.exp_pos _)).ne'
  unfold shareP shareS
  rw [mass_coe, wgtP_coe, wgtS_coe, Ideal.div_coe hZ, Ideal.div_coe hZ, one_eq, ← EReal.coe_mul, ← EReal.coe_mul,
    ← EReal.coe_one, ← EReal.coe_sub]
  refine congrArg _ ?_
  field_simp
  ring

/-- So for finite log-sum-exps the two spellings of the merged entry are one extended real, whatever the two
    partial outputs are (no law is asked of `a` and `b`: they may be infinite). -/
theorem mergedCompl_eq_merged (a b : EReal) (p s : ℝ) :
    mergedCompl a b (p : EReal) (s : EReal) = merged a b (p : EReal) (s : EReal) := by
  unfold mergedCompl merged
  rw [complement_share]

end Cert.Merge

end
-- ==== Proof.LibTrailingUnit.lean ====
/-
  Two layout operations read at an index given by coordinates, for any extents: a TRAILING unit axis added by a
  shape cast, and an array with a trailing unit axis broadcast along that axis. Together they are the "keep the last
  axis as a column and spread it" step, `w[..., None]` followed by a broadcast against a rank-3 array: the result at
  `(i, j, k)` is `w` at `(i, j)`, whatever `k` is (`spread_apply`).
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b]` array cast to `[a, b, 1]` reads, at `(i, j, u)`, the operand at `(i, j)`: both indices have the
    row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, c]` reads, at `(i, j, k)`, the operand at `(i, j, 0)`: the first two
    coordinates are kept (an extent-1 axis there has only the coordinate `0`), the last is the unit axis's `0`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A column kept as a trailing unit axis and spread along a new last axis: the result at `(i, j, k)` is the
    operand at `(i, j)`. -/
theorem spread_apply {a b c : ℕ} (w : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ w h1) h2 (ix3 i j k) = w (ix2 i j) :=
  (broadcastTo_ab1_abc_apply _ h2 i j k).trans (shapeCast_ab_ab1_apply w h1 i j 0)

end Cert.Lib.TrailingUnit
-- ==== Proof.KernelEntry.lean ====
/-
  The two values the kernel's body leaves (KernelPieces), read one entry at a time on the extended reals.

  Every operation on the log-sum-exp side is entrywise, so the log-sum-exp block at `(r, h)` is the merged
  log-sum-exp of the two input entries at `(r, h)` (`lse_entry`). On the output side the two shares are columns
  `[rows, heads]` kept as `[rows, heads, 1]` and spread along the head dimension, so the output block at `(r, h, d)`
  is the prefix output there times the prefix share at `(r, h)` plus the suffix output there times the complement
  of that share (`out_entry`) — the merged entry with the suffix share spelt as a complement.
-/
import proofs.«149472_j15418932593049_2_alg».proof.Proof.KernelPieces
import proofs.«149472_j15418932593049_2_alg».proof.Proof.MergeLaw
import proofs.«149472_j15418932593049_2_alg».proof.Proof.LibTrailingUnit
import Idealize.ShloMosaic.Lib.ValueIdx

noncomputable section

namespace Cert.KernelIdeal.Entry

open Cert.KernelIdeal Cert.KernelIdeal.Gen Idealize.ShloMosaic Idealize.ShloMosaic.ValueIdx

/-- The log-sum-exp block's value at an entry: the merged log-sum-exp of the two entries there. -/
theorem lse_entry (x1 x3 : Vec Ideal S256x32 .f32) (j : S256x32.Idx) :
    k0_pay6 (F := Ideal) x1 x3 j = Cert.Merge.lse (x1 j) (x3 j) := rfl

/-- The prefix share as the body computes it, at an entry. -/
theorem share_entry (x1 x3 : Vec Ideal S256x32 .f32) (j : S256x32.Idx) :
    k0_pay7 (F := Ideal) x1 x3 j = Cert.Merge.shareP (x1 j) (x3 j) := rfl

/-- The output block's value at an entry `(r, h, d)`: the merged entry of the two outputs at `(r, h, d)` by the
    two log-sum-exps at `(r, h)`, the suffix share a complement. -/
theorem out_entry (x0 x2 : Vec Ideal S256x32x128 .f32) (x1 x3 : Vec Ideal S256x32 .f32)
    (r : Fin 256) (h : Fin 32) (d : Fin 128) :
    k0_pay9 (F := Ideal) x1 x3 (k0_pay8 x1 x3 x0) x2 (ix3 r h d)
      = Cert.Merge.mergedCompl (x0 (ix3 r h d)) (x2 (ix3 r h d)) (x1 (ix2 r h)) (x3 (ix2 r h)) := by
  unfold k0_pay9 k0_pay8
  dsimp only
  rw [shapeCast_self]
  show x0 (ix3 r h d) * broadcastTo S256x32x128 (shapeCast S256x32x1 (k0_pay7 x1 x3) _) _ (ix3 r h d)
      + x2 (ix3 r h d) * broadcastTo S256x32x128
          (shapeCast S256x32x1 (subf (broadcast S256x32 (Scalar.ofBits .f32 0x3F800000#32)) (k0_pay7 x1 x3)) _) _ (ix3 r h d) = _
  rw [Cert.Lib.TrailingUnit.spread_apply, Cert.Lib.TrailingUnit.spread_apply]
  rfl

end Cert.KernelIdeal.Entry

end
-- ==== Proof.MergeArray.lean ====
/-
  The merge as ONE function of the four argument arrays, index by index: prefix outputs `A` and suffix outputs `B`
  of shape [tokens, heads, head size] = [16384, 32, 128], prefix and suffix log-sum-exps `P`, `S` of shape
  [tokens, heads] = [16384, 32].

  The merged log-sum-exp at `(t, h)` depends on `P` and `S` at `(t, h)` only; the merged output at `(t, h, d)`
  depends on `A` and `B` at `(t, h, d)` and on `P` and `S` at its row `(t, h)` (`rowOf`). The output comes in the two
  spellings of the suffix share (a quotient; the complement of the prefix share), which agree as soon as every
  log-sum-exp entry is finite (`outArrCompl_eq_outArr`), by the entrywise law.
-/
import proofs.«149472_j15418932593049_2_alg».proof.Proof.MergeLaw
import Idealize.ShloMosaic.Lib.ValueIdx

noncomputable section

namespace Cert.Merge

open Idealize.ShloMosaic

/-- The outputs' shape: [tokens, heads, head size]. -/
abbrev Big : Shape := ⟨3, ![16384, 32, 128]⟩

/-- The log-sum-exps' shape: [tokens, heads]. -/
abbrev Small : Shape := ⟨2, ![16384, 32]⟩

/-- The row `(t, h)` of an output index `(t, h, d)`. -/
abbrev rowOf (i : Big.Idx) : Small.Idx := fun a => match a with
  | ⟨0, _⟩ => ⟨(i 0).val, (i 0).isLt⟩
  | ⟨1, _⟩ => ⟨(i 1).val, (i 1).isLt⟩

/-- The merged log-sum-exps, entry by entry. -/
def lseArr (P S : Small.Idx → EReal) : Small.Idx → EReal := fun j => lse (P j) (S j)

/-- The merged outputs, the suffix share a quotient. -/
def outArr (A B : Big.Idx → EReal) (P S : Small.Idx → EReal) : Big.Idx → EReal :=
  fun i => merged (A i) (B i) (P (rowOf i)) (S (rowOf i))

/-- The merged outputs, the suffix share the complement of the prefix share. -/
def outArrCompl (A B : Big.Idx → EReal) (P S : Small.Idx → EReal) : Big.Idx → EReal :=
  fun i => mergedCompl (A i) (B i) (P (rowOf i)) (S (rowOf i))

/-- With every log-sum-exp entry finite the two spellings are one array (the outputs `A`, `B` unconstrained). -/
theorem outArrCompl_eq_outArr (A B : Big.Idx → EReal) (P S : Small.Idx → EReal)
    (hP : ∀ j, ∃ r : ℝ, P j = (r : EReal)) (hS : ∀ j, ∃ r : ℝ, S j = (r : EReal)) :
    outArrCompl A B P S = outArr A B P S := by
  funext i
  obtain ⟨p, hp⟩ := hP (rowOf i)
  obtain ⟨s, hs⟩ := hS (rowOf i)
  unfold outArrCompl outArr
  rw [hp, hs]
  exact mergedCompl_eq_merged _ _ p s

end Cert.Merge

end
-- ==== Proof.KernelArray.lean ====
/-
  From blocks to arrays: after the kernel's run each of its two result arrays is ONE function of the four argument
  arrays (MergeArray), at the ideal instance.

  The grid has 64 points; at point `t` every window's block is the slab of 256 consecutive tokens `256 t … 256 t + 255`
  of its array, all heads (and all of the head dimension): every index map is `t ↦ (t, 0, …)` (`index_facts`). So a
  block entry `(r, h, d)` at point `t` is the array's entry `(256 t + r, h, d)` (`big_block_apply`,
  `small_block_apply`), the row of that entry is the entry `(r, h)` of the log-sum-exp blocks at the same point, and
  what point `t` writes back is block `t` of the whole-array function (`flushedOut_eq`, `flushedLse_eq`). The 64 slabs
  cover the token axis — token `n` lies in slab `n / 256` — so the arrays end at those functions (`finalOut`,
  `finalLse`), and the run is re-posted with them (`run`).
-/
import proofs.«149472_j15418932593049_2_alg».proof.Proof.Gen.KernelIdeal.Value
import proofs.«149472_j15418932593049_2_alg».proof.Proof.KernelEntry
import proofs.«149472_j15418932593049_2_alg».proof.Proof.MergeArray
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every window's index map sends point `t` to block `t` along the token axis and block `0` along the others
    (decided over the 64 points). -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 2) = t.val ∧ win0_5.index t (1 : Fin 2) = 0) :=
  (by decide +kernel : ∀ t : Fin grid0.N, _)

/-! ## A block entry is an array entry -/

/-- The prefix outputs' block at point `t`, at `(r, h, d)`, is the array at `(256 t + r, h, d)`. -/
theorem blockA_apply (c : Dev nD) (t : Fin cfg0.N) (r : Fin 256) (h : Fin 32) (d : Fin 128) (k : S16384x32x128.Idx)
    (hk0 : (k 0).val = 256 * t.val + r.val) (hk1 : (k 1).val = h.val) (hk2 : (k 2).val = d.val) :
    (iblk m c 0 t : Vec Ideal S256x32x128 .f32) (ix3 r h d)
      = (m ((c : Thread nD τ).loc main_arg0) : S16384x32x128.Idx → EReal) k := by
  obtain ⟨⟨e0, e1, e2⟩, -⟩ := index_facts t
  unfold iblk
  rw [View.read_apply]
  show V m c main_arg0 _ = m (c.tc.loc main_arg0) _
  unfold V
  congr 1
  funext a
  apply Fin.ext
  match a with
  | ⟨0, _⟩ => show win0_0.index t 0 * 256 + 1 * r.val = (k 0).val; rw [e0, hk0]; omega
  | ⟨1, _⟩ => show win0_0.index t 1 * 32 + 1 * h.val = (k 1).val; rw [e1, hk1]; omega
  | ⟨2, _⟩ => show win0_0.index t 2 * 128 + 1 * d.val = (k 2).val; rw [e2, hk2]; omega

/-- The suffix outputs' block at point `t`, at `(r, h, d)`, is the array at `(256 t + r, h, d)`. -/
theorem blockB_apply (c : Dev nD) (t : Fin cfg0.N) (r : Fin 256) (h : Fin 32) (d : Fin 128) (k : S16384x32x128.Idx)
    (hk0 : (k 0).val = 256 * t.val + r.val) (hk1 : (k 1).val = h.val) (hk2 : (k 2).val = d.val) :
    (iblk m c 2 t : Vec Ideal S256x32x128 .f32) (ix3 r h d)
      = (m ((c : Thread nD τ).loc main_arg2) : S16384x32x128.Idx → EReal) k := by
  obtain ⟨-, -, ⟨e0, e1, e2⟩, -⟩ := index_facts t
  unfold iblk
  rw [View.read_apply]
  show V m c main_arg2 _ = m (c.tc.loc main_arg2) _
  unfold V
  congr 1
  funext a
  apply Fin.ext
  match a with
  | ⟨0, _⟩ => show win0_2.index t 0 * 256 + 1 * r.val = (k 0).val; rw [e0, hk0]; omega
  | ⟨1, _⟩ => show win0_2.index t 1 * 32 + 1 * h.val = (k 1).val; rw [e1, hk1]; omega
  | ⟨2, _⟩ => show win0_2.index t 2 * 128 + 1 * d.val = (k 2).val; rw [e2, hk2]; omega

/-- The prefix log-sum-exps' block at point `t`, at `(r, h)`, is the array at `(256 t + r, h)`. -/
theorem blockP_apply (c : Dev nD) (t : Fin cfg0.N) (r : Fin 256) (h : Fin 32) (k : S16384x32.Idx)
    (hk0 : (k 0).val = 256 * t.val + r.val) (hk1 : (k 1).val = h.val) :
    (iblk m c 1 t : Vec Ideal S256x32 .f32) (ix2 r h)
      = (m ((c : Thread nD τ).loc main_arg1) : S16384x32.Idx → EReal) k := by
  obtain ⟨-, ⟨e0, e1⟩, -⟩ := index_facts t
  unfold iblk
  rw [View.read_apply]
  show V m c main_arg1 _ = m (c.tc.loc main_arg1) _
  unfold V
  congr 1
  funext a
  apply Fin.ext
  match a with
  | ⟨0, _⟩ => show win0_1.index t 0 * 256 + 1 * r.val = (k 0).val; rw [e0, hk0]; omega
  | ⟨1, _⟩ => show win0_1.index t 1 * 32 + 1 * h.val = (k 1).val; rw [e1, hk1]; omega

/-- The suffix log-sum-exps' block at point `t`, at `(r, h)`, is the array at `(256 t + r, h)`. -/
theorem blockS_apply (c : Dev nD) (t : Fin cfg0.N) (r : Fin 256) (h : Fin 32) (k : S16384x32.Idx)
    (hk0 : (k 0).val = 256 * t.val + r.val) (hk1 : (k 1).val = h.val) :
    (iblk m c 3 t : Vec Ideal S256x32 .f32) (ix2 r h)
      = (m ((c : Thread nD τ).loc main_arg3) : S16384x32.Idx → EReal) k := by
  obtain ⟨-, -, -, ⟨e0, e1⟩, -⟩ := index_facts t
  unfold iblk
  rw [View.read_apply]
  show V m c main_arg3 _ = m (c.tc.loc main_arg3) _
  unfold V
  congr 1
  funext a
  apply Fin.ext
  match a with
  | ⟨0, _⟩ => show win0_3.index t 0 * 256 + 1 * r.val = (k 0).val; rw [e0, hk0]; omega
  | ⟨1, _⟩ => show win0_3.index t 1 * 32 + 1 * h.val = (k 1).val; rw [e1, hk1]; omega

/-! ## What a point writes back is a block of the whole-array function -/

/-- The merged outputs as a function of the launch memory. -/
abbrev outOf (c : Dev nD) : Buf (Elt Ideal) ((c : Thread nD τ).loc main_v0_0) :=
  Cert.Merge.outArrCompl (m ((c : Thread nD τ).loc main_arg0)) (m ((c : Thread nD τ).loc main_arg2))
    (m ((c : Thread nD τ).loc main_arg1)) (m ((c : Thread nD τ).loc main_arg3))

/-- The merged log-sum-exps as a function of the launch memory. -/
abbrev lseOf (c : Dev nD) : Buf (Elt Ideal) ((c : Thread nD τ).loc main_v0_1) :=
  Cert.Merge.lseArr (m ((c : Thread nD τ).loc main_arg1)) (m ((c : Thread nD τ).loc main_arg3))

/-- The output window's block at point `t` sits at tokens `256 t …`: its entry `(r, h, d)` is the array index
    `(256 t + r, h, d)`. -/
theorem embOut_val (t : Fin cfg0.N) (r : Fin 256) (h : Fin 32) (d : Fin 128) :
    ((((cfg0.win 4).blk t).view.emb (ix3 r h d)) 0).val = 256 * t.val + r.val
    ∧ ((((cfg0.win 4).blk t).view.emb (ix3 r h d)) 1).val = h.val
    ∧ ((((cfg0.win 4).blk t).view.emb (ix3 r h d)) 2).val = d.val := by
  obtain ⟨-, -, -, -, ⟨e0, e1, e2⟩, -⟩ := index_facts t
  refine ⟨?_, ?_, ?_⟩
  · show win0_4.index t 0 * 256 + 1 * r.val = _; rw [e0]; omega
  · show win0_4.index t 1 * 32 + 1 * h.val = _; rw [e1]; omega
  · show win0_4.index t 2 * 128 + 1 * d.val = _; rw [e2]; omega

/-- The log-sum-exp window's block at point `t`: its entry `(r, h)` is the array index `(256 t + r, h)`. -/
theorem embLse_val (t : Fin cfg0.N) (r : Fin 256) (h : Fin 32) :
    ((((cfg0.win 5).blk t).view.emb (ix2 r h)) 0).val = 256 * t.val + r.val
    ∧ ((((cfg0.win 5).blk t).view.emb (ix2 r h)) 1).val = h.val := by
  obtain ⟨-, -, -, -, -, ⟨e0, e1⟩⟩ := index_facts t
  refine ⟨?_, ?_⟩
  · show win0_5.index t 0 * 256 + 1 * r.val = _; rw [e0]; omega
  · show win0_5.index t 1 * 32 + 1 * h.val = _; rw [e1]; omega

/-- WHAT POINT `t` WRITES BACK to the outputs is block `t` of the merged outputs of the arguments. -/
theorem flushedOut_eq (c : Dev nD) (t : Fin cfg0.N) :
    (dats m 0 c).flushed 4 t = ((cfg0.win 4).blk t).view.read (Elt Ideal) (outOf m c) := by
  rw [Cert.KernelIdeal.Value.flushed4_A, Cert.KernelIdeal.Pieces.out_block]
  refine funext fun (j : S256x32x128.Idx) => ?_
  obtain ⟨r, h, d, rfl⟩ : ∃ (r : Fin 256) (h : Fin 32) (d : Fin 128), j = ix3 r h d := ⟨j 0, j 1, j 2, eq_ix3 j⟩
  rw [View.read_apply]
  obtain ⟨k0, k1, k2⟩ := embOut_val t r h d
  show k0_pay9 (iblk m c 1 t) (iblk m c 3 t) (k0_pay8 (iblk m c 1 t) (iblk m c 3 t) (iblk m c 0 t)) (iblk m c 2 t) (ix3 r h d)
    = Cert.Merge.mergedCompl _ _ _ _
  refine (Cert.KernelIdeal.Entry.out_entry (iblk m c 0 t) (iblk m c 2 t) (iblk m c 1 t) (iblk m c 3 t) r h d).trans ?_
  rw [blockA_apply m c t r h d _ k0 k1 k2, blockB_apply m c t r h d _ k0 k1 k2,
    blockP_apply m c t r h (Cert.Merge.rowOf (((cfg0.win 4).blk t).view.emb (ix3 r h d))) k0 k1,
    blockS_apply m c t r h (Cert.Merge.rowOf (((cfg0.win 4).blk t).view.emb (ix3 r h d))) k0 k1]

/-- WHAT POINT `t` WRITES BACK to the log-sum-exps is block `t` of the merged log-sum-exps of the arguments. -/
theorem flushedLse_eq (c : Dev nD) (t : Fin cfg0.N) :
    (dats m 0 c).flushed 5 t = ((cfg0.win 5).blk t).view.read (Elt Ideal) (lseOf m c) := by
  rw [Cert.KernelIdeal.Value.flushed5_A, Cert.KernelIdeal.Pieces.lse_block]
  refine funext fun (j : S256x32.Idx) => ?_
  obtain ⟨r, h, rfl⟩ : ∃ (r : Fin 256) (h : Fin 32), j = ix2 r h := ⟨j 0, j 1, eq_ix2 j⟩
  rw [View.read_apply]
  obtain ⟨k0, k1⟩ := embLse_val t r h
  show k0_pay6 (iblk m c 1 t) (iblk m c 3 t) (ix2 r h) = Cert.Merge.lse _ _
  refine (Cert.KernelIdeal.Entry.lse_entry (iblk m c 1 t) (iblk m c 3 t) (ix2 r h)).trans ?_
  rw [blockP_apply m c t r h _ k0 k1, blockS_apply m c t r h _ k0 k1]

/-! ## The slabs cover the arrays -/

/-- Token `n` lies in slab `n / 256`: every output index is in some point's block. -/
theorem coverOut (i : S16384x32x128.Idx) :
    ∃ t : Fin cfg0.N, (cfg0.win 4).flush t = true ∧ i ∈ ((cfg0.win 4).blk t).view.set := by
  have h0 : (i 0).val < 16384 := (i 0).isLt
  have h1 : (i 1).val < 32 := (i 1).isLt
  have h2 : (i 2).val < 128 := (i 2).isLt
  have hN : cfg0.N = 64 := N_0
  let t : Fin cfg0.N := ⟨(i 0).val / 256, by rw [hN]; omega⟩
  have ht : t.val = (i 0).val / 256 := rfl
  obtain ⟨-, -, -, -, ⟨e0, e1, e2⟩, -⟩ := index_facts t
  refine ⟨t, flush0_4 t, ?_⟩
  show i ∈ ((View.whole main_v0_0).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [e0, ht]; omega
  | ⟨1, _⟩ =>
    show win0_4.index t 1 * 32 ≤ (i 1).val ∧ (i 1).val < win0_4.index t 1 * 32 + 32
    rw [e1]; omega
  | ⟨2, _⟩ =>
    show win0_4.index t 2 * 128 ≤ (i 2).val ∧ (i 2).val < win0_4.index t 2 * 128 + 128
    rw [e2]; omega

/-- Likewise every log-sum-exp index is in some point's block. -/
theorem coverLse (i : S16384x32.Idx) :
    ∃ t : Fin cfg0.N, (cfg0.win 5).flush t = true ∧ i ∈ ((cfg0.win 5).blk t).view.set := by
  have h0 : (i 0).val < 16384 := (i 0).isLt
  have h1 : (i 1).val < 32 := (i 1).isLt
  have hN : cfg0.N = 64 := N_0
  let t : Fin cfg0.N := ⟨(i 0).val / 256, by rw [hN]; omega⟩
  have ht : t.val = (i 0).val / 256 := rfl
  obtain ⟨-, -, -, -, -, ⟨e0, e1⟩⟩ := index_facts t
  refine ⟨t, flush0_5 t, ?_⟩
  show i ∈ ((View.whole main_v0_1).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    rw [e0, ht]; omega
  | ⟨1, _⟩ =>
    show win0_5.index t 1 * 32 ≤ (i 1).val ∧ (i 1).val < win0_5.index t 1 * 32 + 32
    rw [e1]; omega

/-! ## The arrays after the run, and the run re-posted -/

/-- The outputs array ends at the merged outputs of the arguments. -/
theorem finalOut (c : Dev nD) : (dats m 0 c).arrAt 4 cfg0.N = outOf m c :=
  (dats m 0 c).arrAt_eq_of_cover 4 (outOf m c) (fun t _ => flushedOut_eq m c t) (coverOut)

/-- The log-sum-exps array ends at the merged log-sum-exps of the arguments. -/
theorem finalLse (c : Dev nD) : (dats m 0 c).arrAt 5 cfg0.N = lseOf m c :=
  (dats m 0 c).arrAt_eq_of_cover 5 (lseOf m c) (fun t _ => flushedLse_eq m c t) (coverLse)

/-- The kernel's run with each result array at its function of the arguments, the arguments unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = lseOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalOut m c), (h c).2.1.trans (finalLse m c), (h c).2.2⟩)
    (Cert.KernelIdeal.Value.run_blocks m ρ)

end Cert.KernelIdeal.Whole

end
-- ==== Proof.ReferenceArray.lean ====
/-
  The reference's two results are the same whole-array functions (MergeArray), at the ideal instance.

  Read one operation at a time, the reference cleans the two log-sum-exp arrays, shifts by their entrywise maximum,
  exponentiates, adds, and divides EACH weight by the total: its shares are the two quotients. The two share arrays
  [tokens, heads] are kept as [tokens, heads, 1] and spread along the head dimension, so its output at `(t, h, d)`
  reads them at the row `(t, h)` (`row_of_spread`): the merged entry with the suffix share a quotient
  (`out_eq`). Its second result is the merged log-sum-exp entry by entry (`lse_eq`). The host's spellings of
  exponential, logarithm and division denote, on the extended reals, the same functions as the kernel's.
-/
import proofs.«149472_j15418932593049_2_alg».proof.Proof.Gen.ReferenceIdeal.Read
import proofs.«149472_j15418932593049_2_alg».proof.Proof.MergeArray

noncomputable section

namespace Cert.ReferenceIdeal.Whole

open Cert.ReferenceIdeal Cert.ReferenceIdeal.Gen Cert.ReferenceIdeal.Read
open Idealize.ShloMosaic Idealize.ShloMosaic.TcCoe Idealize.SL.Sem

/-- The prefix share's column, spread: an output index reads it at its row. -/
theorem row_of_spreadP (i : S16384x32x128.Idx) : idx_main_v15 (idx_main_v18 i) = Cert.Merge.rowOf i :=
  funext fun a => by match a with | ⟨0, _⟩ => rfl | ⟨1, _⟩ => rfl

/-- The suffix share's column, spread: an output index reads it at its row. -/
theorem row_of_spreadS (i : S16384x32x128.Idx) : idx_main_v17 (idx_main_v20 i) = Cert.Merge.rowOf i :=
  funext fun a => by match a with | ⟨0, _⟩ => rfl | ⟨1, _⟩ => rfl

/-- The reference's log-sum-exp stage is the merged log-sum-exps, entry by entry. -/
theorem lse_eq (x1 x3 : (⟨S16384x32, .f32⟩ : BufTy).Contents (Elt Ideal)) :
    val_main_v13 (F := Ideal) x1 x3 = Cert.Merge.lseArr x1 x3 := by
  funext j
  rfl

/-- The prefix share stage at an entry. -/
theorem shareP_eq (x1 x3 : (⟨S16384x32, .f32⟩ : BufTy).Contents (Elt Ideal)) (j : S16384x32.Idx) :
    val_main_v14 (F := Ideal) x1 x3 j = Cert.Merge.shareP (x1 j) (x3 j) := rfl

/-- The suffix share stage at an entry. -/
theorem shareS_eq (x1 x3 : (⟨S16384x32, .f32⟩ : BufTy).Contents (Elt Ideal)) (j : S16384x32.Idx) :
    val_main_v16 (F := Ideal) x1 x3 j = Cert.Merge.shareS (x1 j) (x3 j) := rfl

/-- The reference's output stage is the merged outputs, the suffix share a quotient. -/
theorem out_eq (x0 x2 : (⟨S16384x32x128, .f32⟩ : BufTy).Contents (Elt Ideal))
    (x1 x3 : (⟨S16384x32, .f32⟩ : BufTy).Contents (Elt Ideal)) :
    val_main_v22 (F := Ideal) x0 x1 x2 x3 = Cert.Merge.outArr x0 x2 x1 x3 := by
  funext i
  rw [val_main_v22_apply, val_main_v19_apply, val_main_v21_apply, val_main_v18_apply, val_main_v20_apply,
    val_main_v15_apply, val_main_v17_apply, row_of_spreadP, row_of_spreadS, shareP_eq, shareS_eq]
  rfl

/-- The reference's run with each result at its function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
          = Cert.Merge.outArr (m ((c.tc : Thread nD τ).loc main_arg0)) (m ((c.tc : Thread nD τ).loc main_arg2))
              (m ((c.tc : Thread nD τ).loc main_arg1)) (m ((c.tc : Thread nD τ).loc main_arg3))
      ∧ r.2.mem ((c.tc : Thread nD τ).loc main_v13)
          = Cert.Merge.lseArr (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((val_main_v22_eq m c).trans (out_eq _ _ _ _)),
        (h c).2.1.trans ((val_main_v13_eq _ _).trans (lse_eq _ _)),
        (h c).2.2⟩)
    (Cert.ReferenceIdeal.Value.run (F := Ideal) m ρ)

end Cert.ReferenceIdeal.Whole

end
-- ==== Proof.FiniteLse.lean ====
/-
  What the precondition gives: every entry of the two log-sum-exp arrays is a real number.

  The precondition is the conjunction of four "all entries have absolute value below +∞" tests, one per argument
  array, each an `and`-reduction over the whole array of the entrywise comparison `|x| < +∞`. The conjunction being
  `1` makes each reduction `1`, a reduction by `and` that is `1` had a `1` at every entry, and on the extended reals
  `max x (-x) < ⊤` excludes exactly `x = ⊤` and `x = ⊥` (`real_of_abs_lt_posInf`). Only the two log-sum-exp arrays'
  tests are used: the law that joins the two programs asks nothing of the outputs arrays.
-/
import proofs.«149472_j15418932593049_2_alg».proof.Proof.Gen.Pre_finite_inputs
import proofs.«149472_j15418932593049_2_alg».proof.Proof.MergeLaw
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- An extended real whose absolute value compares below `+∞` is a real number. -/
theorem real_of_abs_lt_posInf (x : EReal)
    (h : Ideal.cmp .olt (max x (-x)) (Ideal.ofBits .f32 0x7F800000#32) = 1#1) : ∃ r : ℝ, x = (r : EReal) := by
  rw [Cert.Merge.posInf_eq] at h
  have hlt : max x (-x) < ⊤ := by
    by_contra hn
    simp [Ideal.cmp, hn] at h
  induction x using EReal.rec with
  | bot => simp at hlt
  | coe r => exact ⟨r, rfl⟩
  | top => simp at hlt

/-- Under the precondition every prefix and every suffix log-sum-exp entry is a real number. -/
theorem lse_entries_real [Cert.Pre_finite_inputs.Facts]
    (a0 a2 : FVec Ideal S16384x32x128 .f32) (a1 a3 : FVec Ideal S16384x32 .f32)
    (h : Cert.Pre_finite_inputs.fn (F := Ideal) a0 a1 a2 a3 = fun _ => 1#1) :
    (∀ j, ∃ r : ℝ, a1 j = (r : EReal)) ∧ (∀ j, ∃ r : ℝ, a3 j = (r : EReal)) := by
  have h0 := congrFun h ValueIdx.ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun j => real_of_abs_lt_posInf (a1 j) (Host.reduce_andi_all _ _ _ _ ValueIdx.ix0 h7 j),
    fun j => real_of_abs_lt_posInf (a3 j) (Host.reduce_andi_all _ _ _ _ ValueIdx.ix0 h17 j)⟩

end Cert.FiniteInputs

end
-- ==== Proof.lean ====
/-
  Merging two partial attention states: the Pallas kernel against its jnp reference, on the extended reals.

  Both programs take prefix and suffix outputs [16384, 32, 128] and their log-sum-exps [16384, 32] and return the
  merged outputs and the merged log-sum-exps. Entry by entry, with `p`, `s` the two log-sum-exps (a `+∞` mark first
  replaced by `-∞`), `M = max p s`, `e_p = exp (p - M)`, `e_s = exp (s - M)`, `Z = e_p + e_s`: the merged log-sum-exp
  is `log Z + M` and the merged output is `a · (e_p / Z) + b · (e_s / Z)`. The two programs spell all of this alike
  except the suffix share: the reference divides, `e_s / Z`; the kernel takes the complement `1 - e_p / Z`.

  * The kernel (its idealization rewrote nothing, so `preserves` is trivial) runs over 64 slabs of 256 tokens; what
    each slab's body leaves is read off the generated frame run (Proof/KernelPieces), entry by entry
    (Proof/KernelEntry), and the 64 slabs are assembled into whole-array functions (Proof/KernelArray).
  * The reference's generated run is read one operation at a time into the same functions (Proof/ReferenceArray).
  * The two spellings of the suffix share agree for FINITE log-sum-exps — then `e_p`, `e_s` are positive reals and
    `1 - e_p / Z = e_s / Z` in the field of reals (Proof/MergeLaw, Proof/MergeArray) — and the precondition says every
    input entry is finite (Proof/FiniteLse). At an infinite log-sum-exp the identity can fail, so the precondition
    is used; nothing is asked of the outputs arrays, whose entries enter both sides by the same products.
  * The three frames: the two kernels' are the generated frame certificates; the reference, a host program, runs
    to completion with its arguments unchanged by its generated run.
-/
import proofs.«149472_j15418932593049_2_alg».proof.Defs
import proofs.«149472_j15418932593049_2_alg».proof.Proof.Gen.Kernel
import proofs.«149472_j15418932593049_2_alg».proof.Proof.Gen.Kernel.Skeleton
import proofs.«149472_j15418932593049_2_alg».proof.Proof.Gen.Kernel.Launch
import proofs.«149472_j15418932593049_2_alg».proof.Proof.Gen.Kernel.Points
import proofs.«149472_j15418932593049_2_alg».proof.Proof.Gen.Kernel.Frame
import proofs.«149472_j15418932593049_2_alg».proof.Proof.Gen.KernelIdeal
import proofs.«149472_j15418932593049_2_alg».proof.Proof.Gen.KernelIdeal.Skeleton
import proofs.«149472_j15418932593049_2_alg».proof.Proof.Gen.KernelIdeal.Launch
import proofs.«149472_j15418932593049_2_alg».proof.Proof.Gen.KernelIdeal.Points
import proofs.«149472_j15418932593049_2_alg».proof.Proof.Gen.KernelIdeal.Frame
import proofs.«149472_j15418932593049_2_alg».proof.Proof.Gen.ReferenceIdeal
import proofs.«149472_j15418932593049_2_alg».proof.Proof.Gen.Pre_finite_inputs
import proofs.«149472_j15418932593049_2_alg».proof.Proof.Gen.KernelIdeal.Value
import proofs.«149472_j15418932593049_2_alg».proof.Proof.Gen.ReferenceIdeal.Run
import proofs.«149472_j15418932593049_2_alg».proof.Proof.Gen.ReferenceIdeal.Read
import proofs.«149472_j15418932593049_2_alg».proof.Proof.KernelArray
import proofs.«149472_j15418932593049_2_alg».proof.Proof.ReferenceArray
import proofs.«149472_j15418932593049_2_alg».proof.Proof.FiniteLse
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference, a host program, runs to completion with its arguments unchanged: its run with the results
    dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation of the kernel. -/
theorem preserves : Cert.preserves_Kernel_KernelIdeal := trivial

/-- From memories agreeing on the arguments both programs run; the kernel ends at the merge with the suffix share
    a complement, the reference at the merge with the suffix share a quotient, of the same arrays; the precondition
    makes every log-sum-exp entry a real, for which the two are one array. The merged log-sum-exps are one term on
    both sides. -/
theorem algebraic : Cert.algebraic_KernelIdeal_ReferenceIdeal := by
  intro m ρ m' ρ' hpre hagree
  refine ⟨fun c => Cert.KernelIdeal.Whole.outOf m c, fun c => Cert.KernelIdeal.Whole.lseOf m c,
    Cert.KernelIdeal.Whole.run m ρ, ?_⟩
  refine (θ_run Cert.ReferenceIdeal.defs _ _).mono (fun _ h c => ?_) (Cert.ReferenceIdeal.Whole.run m' ρ')
  obtain ⟨hP, hS⟩ := Cert.FiniteInputs.lse_entries_real _ _ _ _ (hpre c)
  refine ⟨(h c).1.trans ?_, (h c).2.1.trans ?_, (h c).2.2⟩
  · rw [(hagree c).1, (hagree c).2.1, (hagree c).2.2.1, (hagree c).2.2.2]
    exact (Cert.Merge.outArrCompl_eq_outArr _ _ _ _ hP hS).symm
  · rw [(hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
